-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S1x1x1024x1024 : Shape := ⟨4, ![1, 1, 1024, 1024]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) (main_arg3 : IVec S1x1x1024x1024 32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S1x1x1024x1024 : Shape := ⟨4, ![1, 1, 1024, 1024]⟩
abbrev S8x16x64x1024 : Shape := ⟨4, ![8, 16, 64, 1024]⟩
abbrev S8x16x1024x1024 : Shape := ⟨4, ![8, 16, 1024, 1024]⟩
abbrev S1x1x1024x64 : Shape := ⟨4, ![1, 1, 1024, 64]⟩
abbrev S1x1x64x1024 : Shape := ⟨4, ![1, 1, 64, 1024]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1x1x1024x1024, .i32⟩
  | .hbm, ⟨4, _⟩ => ⟨S8x16x64x1024, .f32⟩
  | .hbm, ⟨5, _⟩ => ⟨S8x16x1024x64, .f32⟩
  | .hbm, ⟨6, _⟩ => ⟨S8x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x64x1024, .f32⟩
  | .local _ .vmem, ⟨3, _⟩ => ⟨S1x1x64x1024, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x1024, .i32⟩
  | .local _ .vmem, ⟨7, _⟩ => ⟨S1x1x1024x64, .f32⟩
  | .local _ .vmem, ⟨8, _⟩ => ⟨S1x1x1024x64, .f32⟩
  | .local _ .vmem, ⟨9, _⟩ => ⟨S1x1x1024x1024, .f32⟩
  | .local _ .vmem, ⟨10, _⟩ => ⟨S1x1x1024x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x16x1024x64_S8x16x64x1024 : S8x16x1024x64.ShapeCasts S8x16x64x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x64x1024_S1x1x64x1024_0_0_0_0 : ∀ a, (![0, 0, 0, 0] : Fin 4 → Nat) a + S1x1x64x1024.size a ≤ S1x1x64x1024.size a
  h_S1x1x64x1024 : 0 < S1x1x64x1024.numel
  shapeCasts_S1x1x64x1024_S64x1024 : S1x1x64x1024.ShapeCasts S64x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1x1024x1024 : S1024x1024.ShapeCasts S1x1x1024x1024
  shapeCasts_S1024x64_S1x1x1024x64 : S1024x64.ShapeCasts S1x1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x1024.size a ≤ S8x16x64x1024.size a
  hwx0_1 : ∀ i : grid0.Coords, EltTy.bits .f32 = 32 ∨ (Rect.block (s := S8x16x64x1024) S1x1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S1x1x1024x1024.size a
  hwx0_3 : ∀ i : grid0.Coords, EltTy.bits .i32 = 32 ∨ (Rect.block (s := S1x1x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x16x1024x64.size a
  hwx0_4 : ∀ i : grid0.Coords, EltTy.bits .f32 = 32 ∨ (Rect.block (s := S8x16x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x16x1024x1024.size a
  hwx0_5 : ∀ i : grid0.Coords, EltTy.bits .f32 = 32 ∨ (Rect.block (s := S8x16x1024x1024) S1x1x1024x1024.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S1x1x1024x1024 : Shape := ⟨4, ![1, 1, 1024, 1024]⟩
abbrev S8x16x64x1024 : Shape := ⟨4, ![8, 16, 64, 1024]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1x1x1024x1024, .i32⟩
  | .hbm, ⟨4, _⟩ => ⟨S8x16x64x1024, .f32⟩
  | .hbm, ⟨5, _⟩ => ⟨S8x16x1024x1024, .f32⟩
  | .hbm, ⟨6, _⟩ => ⟨S_, .f32⟩
  | .hbm, ⟨7, _⟩ => ⟨S8x16x1024x1024, .f32⟩
  | .hbm, ⟨8, _⟩ => ⟨S8x16x1024x1024, .f32⟩
  | .hbm, ⟨9, _⟩ => ⟨S_, .i32⟩
  | .hbm, ⟨10, _⟩ => ⟨S1x1x1024x1024, .i32⟩
  | .hbm, ⟨11, _⟩ => ⟨S1x1x1024x1024, .i1⟩
  | .hbm, ⟨12, _⟩ => ⟨S_, .f32⟩
  | .hbm, ⟨13, _⟩ => ⟨S8x16x1024x1024, .i1⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S_, .f32⟩
  | .hbm, ⟨19, _⟩ => ⟨S8x16x1024, .f32⟩
  | .hbm, ⟨20, _⟩ => ⟨S8x16x1024, .f32⟩
  | .hbm, ⟨21, _⟩ => ⟨S8x16x1024x1, .f32⟩
  | .hbm, ⟨22, _⟩ => ⟨S8x16x1024x1024, .f32⟩
  | .hbm, ⟨23, _⟩ => ⟨S8x16x1024x1024, .f32⟩
  | .hbm, ⟨24, _⟩ => ⟨S8x16x1024x1024, .f32⟩
  | .hbm, ⟨25, _⟩ => ⟨S_, .f32⟩
  | .hbm, ⟨26, _⟩ => ⟨S8x16x1024, .f32⟩
  | .hbm, ⟨27, _⟩ => ⟨S8x16x1024x1, .f32⟩
  | .hbm, ⟨28, _⟩ => ⟨S8x16x1024x1024, .f32⟩
  | .hbm, ⟨29, _⟩ => ⟨S8x16x1024x1024, .f32⟩
  | .hbm, ⟨30, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  shapeCasts_S8x16x1024x64_S8x16x64x1024 : S8x16x1024x64.ShapeCasts S8x16x64x1024
  bcast_S_S8x16x1024x1024 : S_.BroadcastsInDim S8x16x1024x1024 (![] : Fin 0 → Fin S8x16x1024x1024.rank)
  bcast_S_S1x1x1024x1024 : S_.BroadcastsInDim S1x1x1024x1024 (![] : Fin 0 → Fin S1x1x1024x1024.rank)
  bcast_S1x1x1024x1024_S8x16x1024x1024_0_1_2_3 : S1x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x64x1024_S8x16x1024x1024_3_2_2_3_01_01_wf : DotDims.WF S8x16x1024x64 S8x16x64x1024 S8x16x1024x1024 [3] [2] [2] [3] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x64x1024_S8x16x1024x1024_3_2_2_3_01_01 : DotDims S8x16x1024x64 S8x16x64x1024 S8x16x1024x1024 where
  lhsContracting := [3]
  rhsContracting := [2]
  lhsNonContracting := [2]
  rhsNonContracting := [3]
  lhsBatch := [0, 1]
  rhsBatch := [0, 1]
  wf := dot_S8x16x1024x64_S8x16x64x1024_S8x16x1024x1024_3_2_2_3_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.AttnSpec.lean ====
/-
  Scaled, masked soft-max attention of one head over the extended reals, and the two whole arrays it fills.

  For one head, with queries `Q` (rows r, features d), keys already laid out features-by-columns `K` (d, c), a mask `M`
  and values `V` (c, d):  the score at (r, c) is  (∑ d, Q r d · K d c) · 1/8  where the mask word is not zero, and a fixed
  small negative number where it is;  a row's shift is its maximum, taken from −∞ and once more against −∞;  the weight
  at (r, c) is  exp (score − shift);  the attention entry is  weight / (∑ over the row of the weights);  the output at
  (r, d) is  ∑ c, attention r c · V c d.
  The whole arrays read head (b, h) of the four-axis arguments; the mask has one head, shared by all.

  The one law stated here: dividing an extended real by eight is multiplying it by one eighth, at the infinities too —
  one side scales the scores by the word of 0.125, the other divides them by the word of 8.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The two scale words -/

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- The word `0x41000000` denotes the real `8`. -/
theorem ofBits_eight : Ideal.ofBits .f32 0x41000000#32 = ((8 : ℝ) : EReal) := by
  simp [Ideal.ofBits, Ideal.ieee, -EReal.coe_mul]; norm_num

/-- Dividing by eight is multiplying by one eighth, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-! ## One head -/

/-- The score at (r, c): the scaled inner product of query row `r` with key column `c`, replaced by a fixed small
    negative number where the mask word is zero. -/
def score (Q : Fin 1024 → Fin 64 → EReal) (K : Fin 64 → Fin 1024 → EReal) (M : Fin 1024 → Fin 1024 → BitVec 32)
    (r c : Fin 1024) : EReal :=
  Scalar.select (IntOp.cmpi .eq (M r c) 0#32) (Ideal.ofBits .f32 0xAB8CBCCC#32)
    ((∑ d : Fin 64, Q r d * K d c) * Ideal.ofBits .f32 0x3E000000#32)

/-- A row's shift: its maximum folded from −∞, taken once more against −∞. -/
def shift (S : Fin 1024 → EReal) : EReal :=
  max (Ideal.ofBits .f32 0xFF800000#32)
    ((Finset.univ : Finset (Fin 1024)).fold max (Ideal.ofBits .f32 0xFF800000#32) S)

/-- A row's weights: the exponential of each entry less the row's shift. -/
def weight (S : Fin 1024 → EReal) (c : Fin 1024) : EReal := Ideal.exp (S c - shift S)

/-- A row's soft-max: each weight over the sum of the row's weights. -/
def softmax (S : Fin 1024 → EReal) (c : Fin 1024) : EReal := Ideal.div (weight S c) (∑ k : Fin 1024, weight S k)

/-- The attention entry at (r, c). -/
def attnHead (Q : Fin 1024 → Fin 64 → EReal) (K : Fin 64 → Fin 1024 → EReal) (M : Fin 1024 → Fin 1024 → BitVec 32)
    (r c : Fin 1024) : EReal := softmax (score Q K M r) c

/-- The output entry at (r, d): row `r` of the attention against column `d` of the values. -/
def outHead (Q : Fin 1024 → Fin 64 → EReal) (K : Fin 64 → Fin 1024 → EReal) (M : Fin 1024 → Fin 1024 → BitVec 32)
    (V : Fin 1024 → Fin 64 → EReal) (r : Fin 1024) (d : Fin 64) : EReal := ∑ c : Fin 1024, attnHead Q K M r c * V c d

/-! ## The whole arrays -/

/-- Head (b, h) of a queries- or values-shaped array. -/
abbrev headRows (x : (⟨4, ![8, 16, 1024, 64]⟩ : Shape).Idx → EReal) (b : Fin 8) (h : Fin 16) : Fin 1024 → Fin 64 → EReal :=
  fun r d => x (ix4 b h r d)

/-- Head (b, h) of the keys as laid out features-by-columns. -/
abbrev headCols (x : (⟨4, ![8, 16, 64, 1024]⟩ : Shape).Idx → EReal) (b : Fin 8) (h : Fin 16) : Fin 64 → Fin 1024 → EReal :=
  fun d c => x (ix4 b h d c)

/-- The one head of the mask. -/
abbrev headMask (x : (⟨4, ![1, 1, 1024, 1024]⟩ : Shape).Idx → BitVec 32) : Fin 1024 → Fin 1024 → BitVec 32 :=
  fun r c => x (ix4 (0 : Fin 1) (0 : Fin 1) r c)

/-- The attention array: at (b, h, r, c), head (b, h)'s attention entry (r, c). -/
def attnArr (q : (⟨4, ![8, 16, 1024, 64]⟩ : Shape).Idx → EReal) (kt : (⟨4, ![8, 16, 64, 1024]⟩ : Shape).Idx → EReal)
    (mask : (⟨4, ![1, 1, 1024, 1024]⟩ : Shape).Idx → BitVec 32) : (⟨4, ![8, 16, 1024, 1024]⟩ : Shape).Idx → EReal :=
  fun i => attnHead (headRows q (i 0) (i 1)) (headCols kt (i 0) (i 1)) (headMask mask) (i 2) (i 3)

/-- The output array: at (b, h, r, d), head (b, h)'s output entry (r, d). -/
def outArr (q : (⟨4, ![8, 16, 1024, 64]⟩ : Shape).Idx → EReal) (kt : (⟨4, ![8, 16, 64, 1024]⟩ : Shape).Idx → EReal)
    (v : (⟨4, ![8, 16, 1024, 64]⟩ : Shape).Idx → EReal) (mask : (⟨4, ![1, 1, 1024, 1024]⟩ : Shape).Idx → BitVec 32) :
    (⟨4, ![8, 16, 1024, 64]⟩ : Shape).Idx → EReal :=
  fun i => outHead (headRows q (i 0) (i 1)) (headCols kt (i 0) (i 1)) (headMask mask) (headRows v (i 0) (i 1)) (i 2) (i 3)

end Cert.Attn

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.KernelBlock.lean ====
/-
  What the kernel body computes from one point's loaded blocks, read at an index, over the extended reals.

  The body casts its [1,1,·,·] blocks to matrices; forms the scores as a matrix product into a zero accumulator, times
  one eighth, replaced by a fixed negative number where the mask word is zero; takes each row's maximum from −∞ and once
  more against −∞, spreads it over the row, subtracts, exponentiates, sums each row from zero, spreads the sum and
  divides; and multiplies the result into the values. Rounding an operand to sixteen bits is the identity here, and a
  matrix product into a zero accumulator is the plain sum over the contracted coordinate. So at (r, c) the first stored
  matrix is the specification's attention entry of the block's head, and at (r, d) the second is its output entry.
-/
import proofs.«172590_j22093311771402_1_alg».proof.Proof.Gen.KernelIdeal.Skeleton
import proofs.«172590_j22093311771402_1_alg».proof.Proof.AttnSpec
import proofs.«172590_j22093311771402_1_alg».proof.Proof.LibRows
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx Cert.Attn

/-! ## The casts between a [1,1,a,b] block and its matrix -/

/-- The queries' or values' block as a matrix: (r, d) reads the block at (0, 0, r, d). -/
theorem cast_rows {α : Type} (x : S1x1x1024x64.Idx → α) (r : Fin 1024) (d : Fin 64) :
    shapeCast S1024x64 x shapeCasts_S1x1x1024x64_S1024x64 (ix2 r d) = x (ix4 (0 : Fin 1) (0 : Fin 1) r d) :=
  shapeCast_apply x _ _ _ (by
    rw [Shape.rowMajor_val_four, Shape.rowMajor_val_two]
    show ((0 * 1 + 0) * 1024 + r.val) * 64 + d.val = r.val * 64 + d.val
    omega)

/-- The keys' block as a matrix: (d, c) reads the block at (0, 0, d, c). -/
theorem cast_cols {α : Type} (x : S1x1x64x1024.Idx → α) (d : Fin 64) (c : Fin 1024) :
    shapeCast S64x1024 x shapeCasts_S1x1x64x1024_S64x1024 (ix2 d c) = x (ix4 (0 : Fin 1) (0 : Fin 1) d c) :=
  shapeCast_apply x _ _ _ (by
    rw [Shape.rowMajor_val_four, Shape.rowMajor_val_two]
    show ((0 * 1 + 0) * 64 + d.val) * 1024 + c.val = d.val * 1024 + c.val
    omega)

/-- The mask's block as a matrix: (r, c) reads the block at (0, 0, r, c). -/
theorem cast_square {α : Type} (x : S1x1x1024x1024.Idx → α) (r c : Fin 1024) :
    shapeCast S1024x1024 x shapeCasts_S1x1x1024x1024_S1024x1024 (ix2 r c) = x (ix4 (0 : Fin 1) (0 : Fin 1) r c) :=
  shapeCast_apply x _ _ _ (by
    rw [Shape.rowMajor_val_four, Shape.rowMajor_val_two]
    show ((0 * 1 + 0) * 1024 + r.val) * 1024 + c.val = r.val * 1024 + c.val
    omega)

/-- The output matrix laid back into its block: (0, 0, r, d) reads the matrix at (r, d). -/
theorem cast_block_rows {α : Type} (X : S1024x64.Idx → α) (r : Fin 1024) (d : Fin 64) :
    shapeCast S1x1x1024x64 X shapeCasts_S1024x64_S1x1x1024x64 (ix4 (0 : Fin 1) (0 : Fin 1) r d) = X (ix2 r d) :=
  shapeCast_apply X _ _ _ (by
    rw [Shape.rowMajor_val_four, Shape.rowMajor_val_two]
    show r.val * 64 + d.val = ((0 * 1 + 0) * 1024 + r.val) * 64 + d.val
    omega)

/-! ## The two matrix products as sums -/

/-- Scores: queries [1024, 64] against keys [64, 1024] into zero, at (r, c), is the sum over the 64 features. -/
theorem scores_matmul (L : FVec Ideal S1024x64 .bf16) (R : FVec Ideal S64x1024 .bf16) (r c : Fin 1024) :
    matmul dot_S1024x64_S64x1024_S1024x1024_1_0_0_1_n_n none L R (constant S1024x1024 .f32 0x00000000#32) (ix2 r c)
      = ∑ k : Fin 64, L (ix2 r k) * R (ix2 k c) := by
  refine (Ideal.matmul_constant_zero_apply dot_S1024x64_S64x1024_S1024x1024_1_0_0_1_n_n none L R (ix2 r c)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k :=
    funext fun a => Fin.ext (by
      match a with
      | ⟨0, _⟩ => rfl
      | ⟨1, _⟩ => exact (dot_S1024x64_S64x1024_S1024x1024_1_0_0_1_n_n.lhsIdx_val_of_single rfl _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c :=
    funext fun a => Fin.ext (by
      match a with
      | ⟨0, _⟩ => exact (dot_S1024x64_S64x1024_S1024x1024_1_0_0_1_n_n.rhsIdx_val_of_single rfl _ _).trans hk
      | ⟨1, _⟩ => rfl)
  rw [el, er]

/-- Output: attention [1024, 1024] against values [1024, 64] into zero, at (r, d), is the sum over the 1024 columns. -/
theorem out_matmul (L : FVec Ideal S1024x1024 .bf16) (R : FVec Ideal S1024x64 .bf16) (r : Fin 1024) (d : Fin 64) :
    matmul dot_S1024x1024_S1024x64_S1024x64_1_0_0_1_n_n none L R (constant S1024x64 .f32 0x00000000#32) (ix2 r d)
      = ∑ k : Fin 1024, L (ix2 r k) * R (ix2 k d) := by
  refine (Ideal.matmul_constant_zero_apply dot_S1024x1024_S1024x64_S1024x64_1_0_0_1_n_n none L R (ix2 r d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k :=
    funext fun a => Fin.ext (by
      match a with
      | ⟨0, _⟩ => rfl
      | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d :=
    funext fun a => Fin.ext (by
      match a with
      | ⟨0, _⟩ => exact (dot_S1024x1024_S1024x64_S1024x64_1_0_0_1_n_n.rhsIdx_val_of_single rfl _ _).trans hk
      | ⟨1, _⟩ => rfl)
  rw [el, er]

/-! ## The body's pieces, named -/

/-- The masked, scaled scores of a point's blocks, as a matrix. -/
def blockScores (x0 : Vec Ideal S1x1x1024x64 .f32) (x1 : Vec Ideal S1x1x64x1024 .f32) (x3 : Vec Ideal S1x1x1024x1024 .i32) :
    FVec Ideal S1024x1024 .f32 :=
  select (cmpi .eq (shapeCast S1024x1024 x3 shapeCasts_S1x1x1024x1024_S1024x1024 : IVec S1024x1024 32) (broadcast S1024x1024 0#32))
    (broadcast S1024x1024 (Scalar.ofBits (F := Ideal) .f32 0xAB8CBCCC#32))
    (mulf (matmul dot_S1024x64_S64x1024_S1024x1024_1_0_0_1_n_n none
        (truncf .bf16 (shapeCast S1024x64 x0 shapeCasts_S1x1x1024x64_S1024x64 : FVec Ideal S1024x64 .f32) bitsLt_bf16_f32)
        (truncf .bf16 (shapeCast S64x1024 x1 shapeCasts_S1x1x64x1024_S64x1024 : FVec Ideal S64x1024 .f32) bitsLt_bf16_f32)
        (constant S1024x1024 .f32 0x00000000#32))
      (broadcast S1024x1024 (Scalar.ofBits (F := Ideal) .f32 0x3E000000#32)))

/-- Each row's shift spread over the row. -/
def rowShift (X : FVec Ideal S1024x1024 .f32) : FVec Ideal S1024x1024 .f32 :=
  broadcastTo S1024x1024
    (shapeCast S1024x1
      (maximumf (broadcast S1024 (Scalar.ofBits (F := Ideal) .f32 0xFF800000#32))
        (multiReduction .maximumf [1] S1024 X 0xFF800000#32 reduces_S1024x1024_S1024 (.inl rfl) rfl))
      shapeCasts_S1024_S1024x1)
    broadcasts_S1024x1_S1024x1024

/-- The weights: the exponential of each entry less its row's shift. -/
def rowWeights (X : FVec Ideal S1024x1024 .f32) : FVec Ideal S1024x1024 .f32 := exp (subf X (rowShift X))

/-- Each row's sum spread over the row. -/
def rowSums (E : FVec Ideal S1024x1024 .f32) : FVec Ideal S1024x1024 .f32 :=
  broadcastTo S1024x1024
    (shapeCast S1024x1 (multiReduction .add [1] S1024 E 0x00000000#32 reduces_S1024x1024_S1024 (.inl rfl) rfl)
      shapeCasts_S1024_S1024x1)
    broadcasts_S1024x1_S1024x1024

/-- The row-wise soft-max of a matrix. -/
def rowSoftmax (X : FVec Ideal S1024x1024 .f32) : FVec Ideal S1024x1024 .f32 := divf (rowWeights X) (rowSums (rowWeights X))

/-- The first stored matrix is the row-wise soft-max of the block's scores. -/
theorem pay3_eq (x0 : Vec Ideal S1x1x1024x64 .f32) (x1 : Vec Ideal S1x1x64x1024 .f32) (x3 : Vec Ideal S1x1x1024x1024 .i32) :
    k0_pay3 (F := Ideal) x0 x1 x3 = rowSoftmax (blockScores x0 x1 x3) := rfl

/-! ## The pieces at an index -/

/-- Head of a block: its rows-by-features matrix. -/
abbrev blkRows (x : Vec Ideal S1x1x1024x64 .f32) : Fin 1024 → Fin 64 → EReal := fun r d => x (ix4 (0 : Fin 1) (0 : Fin 1) r d)
/-- Head of the keys' block: its features-by-columns matrix. -/
abbrev blkCols (x : Vec Ideal S1x1x64x1024 .f32) : Fin 64 → Fin 1024 → EReal := fun d c => x (ix4 (0 : Fin 1) (0 : Fin 1) d c)
/-- The mask's block as a matrix of words. -/
abbrev blkMask (x : Vec Ideal S1x1x1024x1024 .i32) : Fin 1024 → Fin 1024 → BitVec 32 := fun r c => x (ix4 (0 : Fin 1) (0 : Fin 1) r c)

theorem blockScores_apply (x0 : Vec Ideal S1x1x1024x64 .f32) (x1 : Vec Ideal S1x1x64x1024 .f32) (x3 : Vec Ideal S1x1x1024x1024 .i32)
    (r c : Fin 1024) : blockScores x0 x1 x3 (ix2 r c) = score (blkRows x0) (blkCols x1) (blkMask x3) r c := by
  unfold blockScores score
  show Scalar.select (IntOp.cmpi .eq (shapeCast S1024x1024 x3 shapeCasts_S1x1x1024x1024_S1024x1024 (ix2 r c)) 0#32)
      (Ideal.ofBits .f32 0xAB8CBCCC#32)
      (matmul dot_S1024x64_S64x1024_S1024x1024_1_0_0_1_n_n none
          (truncf .bf16 (shapeCast S1024x64 x0 shapeCasts_S1x1x1024x64_S1024x64 : FVec Ideal S1024x64 .f32) bitsLt_bf16_f32)
          (truncf .bf16 (shapeCast S64x1024 x1 shapeCasts_S1x1x64x1024_S64x1024 : FVec Ideal S64x1024 .f32) bitsLt_bf16_f32)
          (constant S1024x1024 .f32 0x00000000#32) (ix2 r c) * Ideal.ofBits .f32 0x3E000000#32) = _
  rw [cast_square, scores_matmul]
  have hs : ∀ k : Fin 64,
      (truncf .bf16 (shapeCast S1024x64 x0 shapeCasts_S1x1x1024x64_S1024x64 : FVec Ideal S1024x64 .f32) bitsLt_bf16_f32 : FVec Ideal S1024x64 .bf16) (ix2 r k)
        * (truncf .bf16 (shapeCast S64x1024 x1 shapeCasts_S1x1x64x1024_S64x1024 : FVec Ideal S64x1024 .f32) bitsLt_bf16_f32 : FVec Ideal S64x1024 .bf16) (ix2 k c)
      = blkRows x0 r k * blkCols x1 k c := fun k => by
    show shapeCast S1024x64 x0 shapeCasts_S1x1x1024x64_S1024x64 (ix2 r k) * shapeCast S64x1024 x1 shapeCasts_S1x1x64x1024_S64x1024 (ix2 k c) = _
    rw [cast_rows, cast_cols]
  rw [Finset.sum_congr rfl fun k _ => hs k]

theorem rowShift_apply (X : FVec Ideal S1024x1024 .f32) (r q : Fin 1024) :
    rowShift X (ix2 r q) = shift (fun k => X (ix2 r k)) :=
  Cert.LibRows.spreadRowMax_apply X (Scalar.ofBits (F := Ideal) .f32 0xFF800000#32) 0xFF800000#32 reduces_S1024x1024_S1024 (.inl rfl) rfl
    shapeCasts_S1024_S1024x1 broadcasts_S1024x1_S1024x1024 r q

theorem rowWeights_apply (X : FVec Ideal S1024x1024 .f32) (r q : Fin 1024) :
    rowWeights X (ix2 r q) = weight (fun k => X (ix2 r k)) q := by
  show Ideal.exp (X (ix2 r q) - rowShift X (ix2 r q)) = _
  rw [rowShift_apply]
  rfl

theorem rowSums_apply (E : FVec Ideal S1024x1024 .f32) (r q : Fin 1024) :
    rowSums E (ix2 r q) = ∑ k : Fin 1024, E (ix2 r k) :=
  Cert.LibRows.spreadRowSum_apply E 0x00000000#32 reduces_S1024x1024_S1024 (.inl rfl) rfl
    shapeCasts_S1024_S1024x1 broadcasts_S1024x1_S1024x1024 r q

theorem rowSoftmax_apply (X : FVec Ideal S1024x1024 .f32) (r c : Fin 1024) :
    rowSoftmax X (ix2 r c) = softmax (fun k => X (ix2 r k)) c := by
  show Ideal.div (rowWeights X (ix2 r c)) (rowSums (rowWeights X) (ix2 r c)) = _
  rw [rowWeights_apply, rowSums_apply, Finset.sum_congr rfl fun k _ => rowWeights_apply X r k]
  rfl

/-! ## The two stored values at an index -/

/-- The first stored matrix at (r, c): the attention entry of the block's head. -/
theorem pay3_apply (x0 : Vec Ideal S1x1x1024x64 .f32) (x1 : Vec Ideal S1x1x64x1024 .f32) (x3 : Vec Ideal S1x1x1024x1024 .i32)
    (r c : Fin 1024) :
    k0_pay3 (F := Ideal) x0 x1 x3 (ix2 r c) = attnHead (blkRows x0) (blkCols x1) (blkMask x3) r c := by
  rw [pay3_eq, rowSoftmax_apply]
  have hS : (fun k : Fin 1024 => blockScores x0 x1 x3 (ix2 r k)) = score (blkRows x0) (blkCols x1) (blkMask x3) r :=
    funext fun k => blockScores_apply x0 x1 x3 r k
  rw [hS]
  rfl

/-- The values' block as the matrix the body multiplies by. -/
theorem pay2_apply (x2 : Vec Ideal S1x1x1024x64 .f32) (k : Fin 1024) (d : Fin 64) :
    k0_pay2 (F := Ideal) x2 (ix2 k d) = blkRows x2 k d := cast_rows x2 k d

/-- The second stored block at (0, 0, r, d): the attention row against column d of the values. -/
theorem pay1_apply (v5 : FVec Ideal S1024x64 .f32) (v27 : FVec Ideal S1024x1024 .f32) (r : Fin 1024) (d : Fin 64) :
    k0_pay1 (F := Ideal) v5 v27 (ix4 (0 : Fin 1) (0 : Fin 1) r d) = ∑ k : Fin 1024, v27 (ix2 r k) * v5 (ix2 k d) := by
  unfold k0_pay1
  refine (cast_block_rows _ r d).trans ?_
  exact out_matmul _ _ r d

/-- The stored attention block at (0, 0, r, c). -/
theorem pay4_apply (x0 : Vec Ideal S1x1x1024x64 .f32) (x1 : Vec Ideal S1x1x64x1024 .f32) (x3 : Vec Ideal S1x1x1024x1024 .i32)
    (r c : Fin 1024) :
    k0_pay4 (F := Ideal) x0 x1 x3 (ix4 (0 : Fin 1) (0 : Fin 1) r c) = attnHead (blkRows x0) (blkCols x1) (blkMask x3) r c := by
  unfold k0_pay4
  refine (shapeCast_apply _ _ _ (ix2 r c) (by
    rw [Shape.rowMajor_val_two, Shape.rowMajor_val_four]
    show r.val * 1024 + c.val = ((0 * 1 + 0) * 1024 + r.val) * 1024 + c.val
    omega)).trans ?_
  exact pay3_apply x0 x1 x3 r c

/-- The stored output block at (0, 0, r, d), over the loaded blocks. -/
theorem outBlock_apply (x0 : Vec Ideal S1x1x1024x64 .f32) (x1 : Vec Ideal S1x1x64x1024 .f32) (x2 : Vec Ideal S1x1x1024x64 .f32)
    (x3 : Vec Ideal S1x1x1024x1024 .i32) (r : Fin 1024) (d : Fin 64) :
    k0_pay1 (F := Ideal) (k0_pay2 x2) (k0_pay3 x0 x1 x3) (ix4 (0 : Fin 1) (0 : Fin 1) r d)
      = outHead (blkRows x0) (blkCols x1) (blkMask x3) (blkRows x2) r d := by
  rw [pay1_apply]
  unfold outHead
  exact Finset.sum_congr rfl fun k _ => by rw [pay3_apply, pay2_apply]

end Cert.KernelIdeal.Block

end
-- ==== Proof.KernelArrays.lean ====
/-
  From blocks to whole arrays: after the run the two result arrays are the specification's output and attention arrays
  of the arguments.

  The grid has one point per head (b, h). At point t every window but the mask's sits at block (b, h, 0, 0) — a whole
  head — and the mask's window at its one block. So the queries' block at (0, 0, r, d) is the queries at (b, h, r, d),
  likewise the re-laid keys and the values, and the mask's block is the mask. The body's stored blocks at a point are
  therefore the attention and the output of head (b, h); written back at (b, h, ·, ·), they are block t of the whole
  arrays. Every head is some point's, so the blocks cover both arrays. The keys reach their window through one host
  re-layout of the second argument.
-/
import proofs.«172590_j22093311771402_1_alg».proof.Proof.Gen.KernelIdeal.Frame
import proofs.«172590_j22093311771402_1_alg».proof.Proof.Gen.KernelIdeal.Value
import proofs.«172590_j22093311771402_1_alg».proof.Proof.KernelBlock
import proofs.«172590_j22093311771402_1_alg».proof.Proof.AttnSpec
import Idealize.ShloMosaic.Lib.Pipeline.Value
import Idealize.ShloMosaic.Lib.StableHlo.Run
import Idealize.ShloMosaic.Lib.ValueIdx

noncomputable section

namespace Cert.KernelIdeal.Arrays

open Cert.KernelIdeal Cert.KernelIdeal.Gen Cert.KernelIdeal.Value Cert.KernelIdeal.Block
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The index maps over the grid -/

/-- Decided over the 128 points: the queries', keys', values' and output's windows sit where the attention's does; the
    mask's at block zero; the attention's at a head (b, h) with b < 8, h < 16, and at zero on the last two axes. -/
theorem idx_facts : ∀ t : Fin cfg0.N,
    (∀ a : Fin 4, win0_0.index t a = win0_5.index t a) ∧ (∀ a : Fin 4, win0_1.index t a = win0_5.index t a)
    ∧ (∀ a : Fin 4, win0_2.index t a = win0_5.index t a) ∧ (∀ a : Fin 4, win0_4.index t a = win0_5.index t a)
    ∧ (∀ a : Fin 4, win0_3.index t a = 0)
    ∧ win0_5.index t (0 : Fin 4) < 8 ∧ win0_5.index t (1 : Fin 4) < 16
    ∧ win0_5.index t (2 : Fin 4) = 0 ∧ win0_5.index t (3 : Fin 4) = 0 :=
  (by decide +kernel : ∀ t : Fin grid0.N, _)

/-- Every head is some point's. -/
theorem idx_onto : ∀ (b : Fin 8) (h : Fin 16), ∃ t : Fin cfg0.N,
    win0_5.index t (0 : Fin 4) = b.val ∧ win0_5.index t (1 : Fin 4) = h.val :=
  (by decide +kernel : ∀ (b : Fin 8) (h : Fin 16), ∃ t : Fin grid0.N,
    win0_5.index t (0 : Fin 4) = b.val ∧ win0_5.index t (1 : Fin 4) = h.val)

/-- The batch entry of point `t`'s head. -/
def bOf (t : Fin cfg0.N) : Fin 8 := ⟨win0_5.index t (0 : Fin 4), (idx_facts t).2.2.2.2.2.1⟩
/-- The head number of point `t`'s head. -/
def hOf (t : Fin cfg0.N) : Fin 16 := ⟨win0_5.index t (1 : Fin 4), (idx_facts t).2.2.2.2.2.2.1⟩

/-! ## Each input block read through its window -/

/-- The queries' block at point `t`: rows of head (b, h) of the first argument array as the region finds it. -/
theorem blk0_apply (c : Dev nD) (t : Fin cfg0.N) (r : Fin 1024) (d : Fin 64) :
    (iblk m c 0 t : Vec Ideal S1x1x1024x64 .f32) (ix4 (0 : Fin 1) (0 : Fin 1) r d)
      = (V m c main_arg0 : S8x16x1024x64.Idx → EReal) (ix4 (bOf t) (hOf t) r d) := by
  obtain ⟨e, -, -, -, -, -, -, z2, z3⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 4) * 1 + 1 * 0 = win0_5.index t (0 : Fin 4); rw [e 0]; omega
  | ⟨1, _⟩ => show win0_0.index t (1 : Fin 4) * 1 + 1 * 0 = win0_5.index t (1 : Fin 4); rw [e 1]; omega
  | ⟨2, _⟩ => show win0_0.index t (2 : Fin 4) * 1024 + 1 * r.val = r.val; rw [e 2, z2]; omega
  | ⟨3, _⟩ => show win0_0.index t (3 : Fin 4) * 64 + 1 * d.val = d.val; rw [e 3, z3]; omega

/-- The keys' block at point `t`: head (b, h) of the re-laid keys. -/
theorem blk1_apply (c : Dev nD) (t : Fin cfg0.N) (d : Fin 64) (q : Fin 1024) :
    (iblk m c 1 t : Vec Ideal S1x1x64x1024 .f32) (ix4 (0 : Fin 1) (0 : Fin 1) d q)
      = (V m c main_call0_v0 : S8x16x64x1024.Idx → EReal) (ix4 (bOf t) (hOf t) d q) := by
  obtain ⟨-, e, -, -, -, -, -, z2, z3⟩ := idx_facts t
  unfold iblk
  rw [View.read_apply]
  show V m c main_call0_v0 _ = V m c main_call0_v0 _
  refine congrArg (V m c main_call0_v0) ?_
  funext a
  apply Fin.ext
  match a with
  | ⟨0, _⟩ => show win0_1.index t (0 : Fin 4) * 1 + 1 * 0 = win0_5.index t (0 : Fin 4); rw [e 0]; omega
  | ⟨1, _⟩ => show win0_1.index t (1 : Fin 4) * 1 + 1 * 0 = win0_5.index t (1 : Fin 4); rw [e 1]; omega
  | ⟨2, _⟩ => show win0_1.index t (2 : Fin 4) * 64 + 1 * d.val = d.val; rw [e 2, z2]; omega
  | ⟨3, _⟩ => show win0_1.index t (3 : Fin 4) * 1024 + 1 * q.val = q.val; rw [e 3, z3]; omega

/-- The values' block at point `t`: rows of head (b, h) of the third argument array. -/
theorem blk2_apply (c : Dev nD) (t : Fin cfg0.N) (r : Fin 1024) (d : Fin 64) :
    (iblk m c 2 t : Vec Ideal S1x1x1024x64 .f32) (ix4 (0 : Fin 1) (0 : Fin 1) r d)
      = (V m c main_arg2 : S8x16x1024x64.Idx → EReal) (ix4 (bOf t) (hOf t) r d) := by
  obtain ⟨-, -, e, -, -, -, -, z2, z3⟩ := idx_facts t
  unfold iblk
  rw [View.read_apply]
  show V m c main_arg2 _ = V m c main_arg2 _
  refine congrArg (V m c main_arg2) ?_
  funext a
  apply Fin.ext
  match a with
  | ⟨0, _⟩ => show win0_2.index t (0 : Fin 4) * 1 + 1 * 0 = win0_5.index t (0 : Fin 4); rw [e 0]; omega
  | ⟨1, _⟩ => show win0_2.index t (1 : Fin 4) * 1 + 1 * 0 = win0_5.index t (1 : Fin 4); rw [e 1]; omega
  | ⟨2, _⟩ => show win0_2.index t (2 : Fin 4) * 1024 + 1 * r.val = r.val; rw [e 2, z2]; omega
  | ⟨3, _⟩ => show win0_2.index t (3 : Fin 4) * 64 + 1 * d.val = d.val; rw [e 3, z3]; omega

/-- The mask's block at every point: the mask. -/
theorem blk3_apply (c : Dev nD) (t : Fin cfg0.N) (r q : Fin 1024) :
    (iblk m c 3 t : Vec Ideal S1x1x1024x1024 .i32) (ix4 (0 : Fin 1) (0 : Fin 1) r q)
      = (V m c main_arg3 : S1x1x1024x1024.Idx → BitVec 32) (ix4 (0 : Fin 1) (0 : Fin 1) r q) := by
  obtain ⟨-, -, -, -, e, -⟩ := idx_facts t
  unfold iblk
  rw [View.read_apply]
  show V m c main_arg3 _ = V m c main_arg3 _
  refine congrArg (V m c main_arg3) ?_
  funext a
  apply Fin.ext
  match a with
  | ⟨0, _⟩ => show win0_3.index t (0 : Fin 4) * 1 + 1 * 0 = 0; rw [e 0]
  | ⟨1, _⟩ => show win0_3.index t (1 : Fin 4) * 1 + 1 * 0 = 0; rw [e 1]
  | ⟨2, _⟩ => show win0_3.index t (2 : Fin 4) * 1024 + 1 * r.val = r.val; rw [e 2]; omega
  | ⟨3, _⟩ => show win0_3.index t (3 : Fin 4) * 1024 + 1 * q.val = q.val; rw [e 3]; omega

/-- So the blocks' matrices are the heads of the arrays. -/
theorem rows0 (c : Dev nD) (t : Fin cfg0.N) :
    blkRows (iblk m c 0 t) = headRows (V m c main_arg0) (bOf t) (hOf t) :=
  funext fun r => funext fun d => blk0_apply m c t r d
theorem cols1 (c : Dev nD) (t : Fin cfg0.N) :
    blkCols (iblk m c 1 t) = headCols (V m c main_call0_v0) (bOf t) (hOf t) :=
  funext fun d => funext fun q => blk1_apply m c t d q
theorem rows2 (c : Dev nD) (t : Fin cfg0.N) :
    blkRows (iblk m c 2 t) = headRows (V m c main_arg2) (bOf t) (hOf t) :=
  funext fun r => funext fun d => blk2_apply m c t r d
theorem mask3 (c : Dev nD) (t : Fin cfg0.N) :
    blkMask (iblk m c 3 t) = headMask (V m c main_arg3) :=
  funext fun r => funext fun q => blk3_apply m c t r q

/-! ## What the body leaves in each output block, over any loaded blocks -/

theorem attnStore_apply (x0 : Vec Ideal S1x1x1024x64 .f32) (x1 : Vec Ideal S1x1x64x1024 .f32) (x2 : Vec Ideal S1x1x1024x64 .f32)
    (x3 : Vec Ideal S1x1x1024x1024 .i32) (r q : Fin 1024) :
    out0_5 x0 x1 x2 x3 (ix4 (0 : Fin 1) (0 : Fin 1) r q) = attnHead (blkRows x0) (blkCols x1) (blkMask x3) r q := by
  unfold out0_5
  rw [View.canon_unit_zero hz]
  simp only [View.ld_unit_zero (S := S1x1x1024x64) hz, View.ld_unit_zero (S := S1x1x64x1024) hz,
    View.ld_unit_zero (S := S1x1x1024x1024) hz]
  exact pay4_apply x0 x1 x3 r q

theorem outStore_apply (x0 : Vec Ideal S1x1x1024x64 .f32) (x1 : Vec Ideal S1x1x64x1024 .f32) (x2 : Vec Ideal S1x1x1024x64 .f32)
    (x3 : Vec Ideal S1x1x1024x1024 .i32) (r : Fin 1024) (d : Fin 64) :
    out0_4 x0 x1 x2 x3 (ix4 (0 : Fin 1) (0 : Fin 1) r d)
      = outHead (blkRows x0) (blkCols x1) (blkMask x3) (blkRows x2) r d := by
  unfold out0_4
  rw [View.canon_unit_zero hz]
  simp only [View.ld_unit_zero (S := S1x1x1024x64) hz, View.ld_unit_zero (S := S1x1x64x1024) hz,
    View.ld_unit_zero (S := S1x1x1024x1024) hz]
  exact outBlock_apply x0 x1 x2 x3 r d

/-! ## Where an output block's element sits in its array -/

theorem emb5 (t : Fin cfg0.N) (y : S1x1x1024x1024.Idx) :
    ((cfg0.win 5).blk t).view.emb y
      = (ix4 (bOf t) (hOf t) (⟨(y 2).val, (y 2).isLt⟩ : Fin 1024) (⟨(y 3).val, (y 3).isLt⟩ : Fin 1024) : S8x16x1024x1024.Idx) := by
  obtain ⟨-, -, -, -, -, -, -, z2, z3⟩ := idx_facts t
  have h0 : (y 0).val < 1 := (y 0).isLt
  have h1 : (y 1).val < 1 := (y 1).isLt
  funext a
  apply Fin.ext
  match a with
  | ⟨0, _⟩ => show win0_5.index t (0 : Fin 4) * 1 + 1 * (y 0).val = win0_5.index t (0 : Fin 4); omega
  | ⟨1, _⟩ => show win0_5.index t (1 : Fin 4) * 1 + 1 * (y 1).val = win0_5.index t (1 : Fin 4); omega
  | ⟨2, _⟩ => show win0_5.index t (2 : Fin 4) * 1024 + 1 * (y 2).val = (y 2).val; rw [z2]; omega
  | ⟨3, _⟩ => show win0_5.index t (3 : Fin 4) * 1024 + 1 * (y 3).val = (y 3).val; rw [z3]; omega

theorem emb4 (t : Fin cfg0.N) (y : S1x1x1024x64.Idx) :
    ((cfg0.win 4).blk t).view.emb y
      = (ix4 (bOf t) (hOf t) (⟨(y 2).val, (y 2).isLt⟩ : Fin 1024) (⟨(y 3).val, (y 3).isLt⟩ : Fin 64) : S8x16x1024x64.Idx) := by
  obtain ⟨-, -, -, e, -, -, -, z2, z3⟩ := idx_facts t
  have h0 : (y 0).val < 1 := (y 0).isLt
  have h1 : (y 1).val < 1 := (y 1).isLt
  funext a
  apply Fin.ext
  match a with
  | ⟨0, _⟩ => show win0_4.index t (0 : Fin 4) * 1 + 1 * (y 0).val = win0_5.index t (0 : Fin 4); rw [e 0]; omega
  | ⟨1, _⟩ => show win0_4.index t (1 : Fin 4) * 1 + 1 * (y 1).val = win0_5.index t (1 : Fin 4); rw [e 1]; omega
  | ⟨2, _⟩ => show win0_4.index t (2 : Fin 4) * 1024 + 1 * (y 2).val = (y 2).val; rw [e 2, z2]; omega
  | ⟨3, _⟩ => show win0_4.index t (3 : Fin 4) * 64 + 1 * (y 3).val = (y 3).val; rw [e 3, z3]; omega

/-- A block index of the attention's window, by its coordinates. -/
theorem split5 (y : S1x1x1024x1024.Idx) :
    y = ix4 (0 : Fin 1) (0 : Fin 1) (⟨(y 2).val, (y 2).isLt⟩ : Fin 1024) (⟨(y 3).val, (y 3).isLt⟩ : Fin 1024) := by
  have h0 : (y 0).val < 1 := (y 0).isLt
  have h1 : (y 1).val < 1 := (y 1).isLt
  funext a
  apply Fin.ext
  match a with
  | ⟨0, _⟩ => show (y 0).val = 0; omega
  | ⟨1, _⟩ => show (y 1).val = 0; omega
  | ⟨2, _⟩ => rfl
  | ⟨3, _⟩ => rfl

/-- A block index of the output's window, by its coordinates. -/
theorem split4 (y : S1x1x1024x64.Idx) :
    y = ix4 (0 : Fin 1) (0 : Fin 1) (⟨(y 2).val, (y 2).isLt⟩ : Fin 1024) (⟨(y 3).val, (y 3).isLt⟩ : Fin 64) := by
  have h0 : (y 0).val < 1 := (y 0).isLt
  have h1 : (y 1).val < 1 := (y 1).isLt
  funext a
  apply Fin.ext
  match a with
  | ⟨0, _⟩ => show (y 0).val = 0; omega
  | ⟨1, _⟩ => show (y 1).val = 0; omega
  | ⟨2, _⟩ => rfl
  | ⟨3, _⟩ => rfl

/-! ## What each point writes back is its block of the whole array -/

/-- The attention array of the arrays as the region finds them. -/
abbrev attnV (c : Dev nD) : S8x16x1024x1024.Idx → EReal :=
  attnArr (V m c main_arg0) (V m c main_call0_v0) (V m c main_arg3)

/-- The output array of the arrays as the region finds them. -/
abbrev outV (c : Dev nD) : S8x16x1024x64.Idx → EReal :=
  outArr (V m c main_arg0) (V m c main_call0_v0) (V m c main_arg2) (V m c main_arg3)

theorem store5_at (c : Dev nD) (t : Fin cfg0.N) (y : S1x1x1024x1024.Idx) :
    out0_5 (iblk m c 0 t) (iblk m c 1 t) (iblk m c 2 t) (iblk m c 3 t) y = attnV m c (((cfg0.win 5).blk t).view.emb y) := by
  rw [emb5 t y]
  refine (congrArg (out0_5 (iblk m c 0 t) (iblk m c 1 t) (iblk m c 2 t) (iblk m c 3 t)) (split5 y)).trans ?_
  refine (attnStore_apply (iblk m c 0 t) (iblk m c 1 t) (iblk m c 2 t) (iblk m c 3 t) _ _).trans ?_
  rw [rows0, cols1, mask3]
  rfl

theorem store4_at (c : Dev nD) (t : Fin cfg0.N) (y : S1x1x1024x64.Idx) :
    out0_4 (iblk m c 0 t) (iblk m c 1 t) (iblk m c 2 t) (iblk m c 3 t) y = outV m c (((cfg0.win 4).blk t).view.emb y) := by
  rw [emb4 t y]
  refine (congrArg (out0_4 (iblk m c 0 t) (iblk m c 1 t) (iblk m c 2 t) (iblk m c 3 t)) (split4 y)).trans ?_
  refine (outStore_apply (iblk m c 0 t) (iblk m c 1 t) (iblk m c 2 t) (iblk m c 3 t) _ _).trans ?_
  rw [rows0, cols1, rows2, mask3]
  rfl

theorem flushed5_eq (c : Dev nD) (t : Fin cfg0.N) :
    (dats m 0 c).flushed 5 t = ((cfg0.win 5).blk t).view.read (Elt Ideal) (attnV m c) := by
  rw [Value.flushed5]
  funext y
  exact store5_at m c t y

theorem flushed4_eq (c : Dev nD) (t : Fin cfg0.N) :
    (dats m 0 c).flushed 4 t = ((cfg0.win 4).blk t).view.read (Elt Ideal) (outV m c) := by
  rw [Value.flushed4]
  funext y
  exact store4_at m c t y

/-! ## The blocks cover the arrays -/

theorem mem_blk5 (t : Fin cfg0.N) (i : S8x16x1024x1024.Idx) :
    i ∈ ((cfg0.win 5).blk t).view.set ↔ ∀ a : Fin 4, win0_5.index t a * S1x1x1024x1024.size a ≤ (i a).val
      ∧ (i a).val < win0_5.index t a * S1x1x1024x1024.size a + S1x1x1024x1024.size a := by
  show i ∈ ((View.whole main_v0_1).slice (win0_5.rect t)).set ↔ _
  rw [View.set_slice_whole, Rect.mem_set_unit]
  exact Iff.rfl

theorem mem_blk4 (t : Fin cfg0.N) (i : S8x16x1024x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v0_0).slice (win0_4.rect t)).set ↔ _
  rw [View.set_slice_whole, Rect.mem_set_unit]
  exact Iff.rfl

theorem cover5 (i : S8x16x1024x1024.Idx) :
    ∃ t : Fin cfg0.N, (cfg0.win 5).flush t = true ∧ i ∈ ((cfg0.win 5).blk t).view.set := by
  obtain ⟨t, hb, hh⟩ := idx_onto ⟨(i 0).val, (i 0).isLt⟩ ⟨(i 1).val, (i 1).isLt⟩
  have hb' : win0_5.index t (0 : Fin 4) = (i 0).val := hb
  have hh' : win0_5.index t (1 : Fin 4) = (i 1).val := hh
  obtain ⟨-, -, -, -, -, -, -, z2, z3⟩ := idx_facts t
  have hi2 : (i 2).val < 1024 := (i 2).isLt
  have hi3 : (i 3).val < 1024 := (i 3).isLt
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 1024 ≤ (i 3).val ∧ (i 3).val < win0_5.index t (3 : Fin 4) * 1024 + 1024; omega

theorem cover4 (i : S8x16x1024x64.Idx) :
    ∃ t : Fin cfg0.N, (cfg0.win 4).flush t = true ∧ i ∈ ((cfg0.win 4).blk t).view.set := by
  obtain ⟨t, hb, hh⟩ := idx_onto ⟨(i 0).val, (i 0).isLt⟩ ⟨(i 1).val, (i 1).isLt⟩
  have hb' : win0_5.index t (0 : Fin 4) = (i 0).val := hb
  have hh' : win0_5.index t (1 : Fin 4) = (i 1).val := hh
  obtain ⟨-, -, -, e, -, -, -, z2, z3⟩ := idx_facts t
  have e0 := e 0
  have e1 := e 1
  have e2 := e 2
  have e3 := e 3
  have hi2 : (i 2).val < 1024 := (i 2).isLt
  have hi3 : (i 3).val < 64 := (i 3).isLt
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The arrays after the run -/

/-- The keys' window's array as the region finds it: the second argument, re-laid by the one host operation. -/
theorem V_keys (c : Dev nD) :
    (V m c main_call0_v0 : S8x16x64x1024.Idx → EReal)
      = shapeCast S8x16x64x1024 (m ((c : Thread nD τ).loc main_arg1)) shapeCasts_S8x16x1024x64_S8x16x64x1024 := by
  dsimp only [Gen.V, Gen.hostOps0]
  after_results
  rfl

theorem final5 (c : Dev nD) : (dats m 0 c).arrAt 5 cfg0.N = attnV m c :=
  (dats m 0 c).arrAt_eq_of_cover 5 (attnV m c) (fun t _ => flushed5_eq m c t) cover5

theorem final4 (c : Dev nD) : (dats m 0 c).arrAt 4 cfg0.N = outV m c :=
  (dats m 0 c).arrAt_eq_of_cover 4 (outV m c) (fun t _ => flushed4_eq m c t) cover4

/-- The attention array of the arguments. -/
abbrev attnOf (c : Dev nD) : S8x16x1024x1024.Idx → EReal :=
  attnArr (m ((c : Thread nD τ).loc main_arg0))
    (shapeCast S8x16x64x1024 (m ((c : Thread nD τ).loc main_arg1)) shapeCasts_S8x16x1024x64_S8x16x64x1024)
    (m ((c : Thread nD τ).loc main_arg3))

/-- The output array of the arguments. -/
abbrev outOf (c : Dev nD) : S8x16x1024x64.Idx → EReal :=
  outArr (m ((c : Thread nD τ).loc main_arg0))
    (shapeCast S8x16x64x1024 (m ((c : Thread nD τ).loc main_arg1)) shapeCasts_S8x16x1024x64_S8x16x64x1024)
    (m ((c : Thread nD τ).loc main_arg2)) (m ((c : Thread nD τ).loc main_arg3))

theorem attnV_eq (c : Dev nD) : attnV m c = attnOf m c := by
  unfold attnV attnOf
  rw [V_keys, V_main_arg0, V_main_arg3]

theorem outV_eq (c : Dev nD) : outV m c = outOf m c := by
  unfold outV outOf
  rw [V_keys, V_main_arg0, V_main_arg2, V_main_arg3]

/-- The run, read: the first result array ends at the output array of the arguments, the second at their attention
    array, the arguments unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final4 m c).trans (outV_eq m c)),
      (h c).2.1.trans ((final5 m c).trans (attnV_eq m c)), (h c).2.2⟩)
    (Value.run_blocks m ρ)

end Cert.KernelIdeal.Arrays

end
-- ==== Proof.LibRows4.lean ====
/-
  Rows of a rank-four array read at an index, over the extended reals: a host reduction by `max` along the last axis is,
  at (p, q, i), the fold of `max` from the initial value over that row's entries; a host sum along the last axis is the
  initial value plus the `Fin`-indexed sum over the row.
-/
import Idealize.ShloMosaic.PureOps.Ideal.Laws
import Idealize.ShloMosaic.PureOps.Reduce
import Idealize.ShloMosaic.Lib.ValueIdx
import Idealize.ShloMosaic.Lib.IdealHost

noncomputable section

namespace Cert.LibRows4

open Idealize.ShloMosaic Idealize.ShloMosaic.ValueIdx

/-- Row `(p, q, i)` of a rank-four array with the last coordinate `k` put back is `(p, q, i, k)`. -/
theorem lift_last4 {n o a b : ℕ} (h : (⟨4, ![n, o, a, b]⟩ : Shape).Reduces [3] (⟨3, ![n, o, a]⟩ : Shape)) (p : Fin n) (q : Fin o)
    (i : Fin a) (k : Fin ((⟨4, ![n, o, a, b]⟩ : Shape).size 3)) :
    h.lift (ix3 p q i) k = ix4 p q i (⟨k.val, k.isLt⟩ : Fin b) := by
  funext c; apply Fin.ext
  fin_cases c <;> rfl

/-- A host reduction by `max` along the last axis of a rank-four array: at `(p, q, i)`, the fold of `max` from the
    initial value over that row. -/
theorem hostRowMax4_apply {n o a b : ℕ} {u : Shape} (X : FVec Ideal ⟨4, ![n, o, a, b]⟩ .f32) (init : u.Idx → Ideal .f32)
    (h' : (⟨4, ![n, o, a, b]⟩ : Shape).ReducesTo [3] (⟨3, ![n, o, a]⟩ : Shape))
    (h : (⟨4, ![n, o, a, b]⟩ : Shape).Reduces [3] (⟨3, ![n, o, a]⟩ : Shape)) (hu : 0 < u.numel) (p : Fin n) (q : Fin o)
    (i : Fin a) :
    Host.reduce FloatOps.maximumf X init h' hu (ix3 p q i)
      = (Finset.univ : Finset (Fin b)).fold max (init (Shape.Idx.first hu)) (fun k => X (ix4 p q i k)) := by
  refine (Host.reduce_eq_fold_single FloatOps.maximumf X init h' h hu (ix3 p q i)).trans ?_
  have hf : (X ∘ h.lift (ix3 p q i)) = fun k : Fin b => X (ix4 p q i k) :=
    funext fun k => congrArg X (lift_last4 h p q i k)
  exact congrArg (fun f => Finset.fold max (init (Shape.Idx.first hu)) f (Finset.univ : Finset (Fin b))) hf

/-- A host sum along the last axis of a rank-four array: at `(p, q, i)`, the initial value plus the sum over that row. -/
theorem hostRowSum4_apply {n o a b : ℕ} {u : Shape} (X : FVec Ideal ⟨4, ![n, o, a, b]⟩ .f32) (init : u.Idx → Ideal .f32)
    (h' : (⟨4, ![n, o, a, b]⟩ : Shape).ReducesTo [3] (⟨3, ![n, o, a]⟩ : Shape))
    (h : (⟨4, ![n, o, a, b]⟩ : Shape).Reduces [3] (⟨3, ![n, o, a]⟩ : Shape)) (hu : 0 < u.numel) (p : Fin n) (q : Fin o)
    (i : Fin a) :
    Host.reduceAdd X init h' hu (ix3 p q i) = init (Shape.Idx.first hu) + ∑ k : Fin b, X (ix4 p q i k) := by
  refine (hostReduceAdd_apply X init h' hu (ix3 p q i)).trans ?_
  refine (Ideal.hostReduceAdd_single h' h X (init (Shape.Idx.first hu)) (ix3 p q i)).trans ?_
  exact congrArg (init (Shape.Idx.first hu) + ·) (Finset.sum_congr rfl fun k _ => congrArg X (lift_last4 h p q i k))

end Cert.LibRows4

end
-- ==== Proof.RefValue.lean ====
/-
  The host program's two results are the attention array and the output array of the specification.

  Stage by stage at an index (b, h, r, c): the masked score is the inner product of query row r with column c of the
  re-laid keys, divided by eight — the product with one eighth —, or the fixed negative number where the mask word is
  zero; the row's shift is the maximum of −∞ and the fold of `max` over the row; the weight is the exponential of score
  less shift; the row sum starts from zero; the attention entry is weight over row sum; the output is the attention row
  against a column of the values.
-/
import proofs.«172590_j22093311771402_1_alg».proof.Proof.Gen.ReferenceIdeal.Read
import proofs.«172590_j22093311771402_1_alg».proof.Proof.AttnSpec
import proofs.«172590_j22093311771402_1_alg».proof.Proof.LibRows4

noncomputable section

namespace Cert.ReferenceIdeal.RefValue

open Cert.ReferenceIdeal Cert.ReferenceIdeal.Gen Cert.ReferenceIdeal.Read
open Idealize.ShloMosaic Idealize.ShloMosaic.ValueIdx Cert.Attn

variable (x0 x1 x2 : (⟨S8x16x1024x64, .f32⟩ : BufTy).Contents (Elt Ideal))
variable (x3 : (⟨S1x1x1024x1024, .i32⟩ : BufTy).Contents (Elt Ideal))

/-! ## Where each stage reads its operands -/

theorem lidx_v1 (b : Fin 8) (h : Fin 16) (r c : Fin 1024) (k : Fin 64) : lidx_main_v1 (ix4 b h r c) k = ix4 b h r k :=
  funext fun a => match a with | ⟨0, _⟩ => rfl | ⟨1, _⟩ => rfl | ⟨2, _⟩ => rfl | ⟨3, _⟩ => rfl

theorem ridx_v1 (b : Fin 8) (h : Fin 16) (r c : Fin 1024) (k : Fin 64) : ridx_main_v1 (ix4 b h r c) k = ix4 b h k c :=
  funext fun a => match a with | ⟨0, _⟩ => rfl | ⟨1, _⟩ => rfl | ⟨2, _⟩ => rfl | ⟨3, _⟩ => rfl

theorem idx_mask (b : Fin 8) (h : Fin 16) (r c : Fin 1024) :
    idx_main_call0_v0 (ix4 b h r c) = ix4 (0 : Fin 1) (0 : Fin 1) r c :=
  funext fun a => match a with | ⟨0, _⟩ => rfl | ⟨1, _⟩ => rfl | ⟨2, _⟩ => rfl | ⟨3, _⟩ => rfl

theorem idx_row (b : Fin 8) (h : Fin 16) (r c : Fin 1024) : idx_main_v10 (idx_main_v11 (ix4 b h r c)) = ix3 b h r :=
  funext fun a => match a with | ⟨0, _⟩ => rfl | ⟨1, _⟩ => rfl | ⟨2, _⟩ => rfl

theorem idx_row' (b : Fin 8) (h : Fin 16) (r c : Fin 1024) : idx_main_v15 (idx_main_v16 (ix4 b h r c)) = ix3 b h r :=
  funext fun a => match a with | ⟨0, _⟩ => rfl | ⟨1, _⟩ => rfl | ⟨2, _⟩ => rfl

theorem idx_v14 (b : Fin 8) (h : Fin 16) (r : Fin 1024) (k : Fin 1024) : idx_main_v14 (ix3 b h r) k = ix4 b h r k :=
  funext fun a => match a with | ⟨0, _⟩ => rfl | ⟨1, _⟩ => rfl | ⟨2, _⟩ => rfl | ⟨3, _⟩ => rfl

theorem lidx_v18 (b : Fin 8) (h : Fin 16) (r : Fin 1024) (d : Fin 64) (k : Fin 1024) :
    lidx_main_v18 (ix4 b h r d) k = ix4 b h r k :=
  funext fun a => match a with | ⟨0, _⟩ => rfl | ⟨1, _⟩ => rfl | ⟨2, _⟩ => rfl | ⟨3, _⟩ => rfl

theorem ridx_v18 (b : Fin 8) (h : Fin 16) (r : Fin 1024) (d : Fin 64) (k : Fin 1024) :
    ridx_main_v18 (ix4 b h r d) k = ix4 b h k d :=
  funext fun a => match a with | ⟨0, _⟩ => rfl | ⟨1, _⟩ => rfl | ⟨2, _⟩ => rfl | ⟨3, _⟩ => rfl

/-! ## The stages -/

/-- Head (b, h)'s score row `r`, over the re-laid keys. -/
abbrev S (b : Fin 8) (h : Fin 16) (r : Fin 1024) : Fin 1024 → EReal :=
  score (headRows x0 b h) (headCols (val_main_v0 (F := Ideal) x1) b h) (headMask x3) r

/-- The masked, scaled score: the quotient by eight is the product with one eighth. -/
theorem score_apply (b : Fin 8) (h : Fin 16) (r c : Fin 1024) :
    val_main_v6 (F := Ideal) x0 x1 x3 (ix4 b h r c) = S x0 x1 x3 b h r c := by
  rw [val_main_v6_apply, val_main_call0_v0_apply, val_main_v5_apply, val_main_v4_apply, val_main_c_apply,
    val_main_call0_v1_apply, val_main_cst_0_apply, val_main_v3_apply, val_main_v1_apply, val_main_v2_apply,
    val_main_cst_apply]
  simp only [lidx_v1, ridx_v1, idx_mask, Ideal.hostDivf_def, Ideal.ofBits_def, div_eight]
  rfl

/-- The row maximum: the fold of `max` from −∞ over the row's scores. -/
theorem rowMax_apply (b : Fin 8) (h : Fin 16) (r : Fin 1024) :
    val_main_v7 (F := Ideal) x0 x1 x3 (ix3 b h r)
      = (Finset.univ : Finset (Fin 1024)).fold max (Ideal.ofBits .f32 0xFF800000#32) (S x0 x1 x3 b h r) := by
  unfold val_main_v7
  refine (Cert.LibRows4.hostRowMax4_apply (val_main_v6 (F := Ideal) x0 x1 x3) (val_main_cst_1 (F := Ideal))
    reducesTo_S8x16x1024x1024_S8x16x1024_d3 (by decide) h_S_ b h r).trans ?_
  have hf : (fun k : Fin 1024 => val_main_v6 (F := Ideal) x0 x1 x3 (ix4 b h r k)) = S x0 x1 x3 b h r :=
    funext fun k => score_apply x0 x1 x3 b h r k
  rw [hf]
  rfl

/-- The shift spread back over the row. -/
theorem shift_apply (b : Fin 8) (h : Fin 16) (r c : Fin 1024) :
    val_main_v11 (F := Ideal) x0 x1 x3 (ix4 b h r c) = shift (S x0 x1 x3 b h r) := by
  rw [val_main_v11_apply, val_main_v10_apply, idx_row, val_main_v9_apply, val_main_v8_apply, val_main_cst_2_apply,
    rowMax_apply]
  rfl

/-- The weight: the exponential of the score less the row's shift. -/
theorem weight_apply (b : Fin 8) (h : Fin 16) (r c : Fin 1024) :
    val_main_v13 (F := Ideal) x0 x1 x3 (ix4 b h r c) = weight (S x0 x1 x3 b h r) c := by
  rw [val_main_v13_apply, val_main_v12_apply, score_apply, shift_apply]
  rfl

/-- The row sum of the weights, from zero. -/
theorem rowSum_apply (b : Fin 8) (h : Fin 16) (r c : Fin 1024) :
    val_main_v16 (F := Ideal) x0 x1 x3 (ix4 b h r c) = ∑ k : Fin 1024, weight (S x0 x1 x3 b h r) k := by
  rw [val_main_v16_apply, val_main_v15_apply, idx_row', val_main_v14_apply, val_main_cst_3_apply]
  simp only [idx_v14, weight_apply, Ideal.ofBits_def, Ideal.ofBits_zero_f32, zero_add]

/-- The attention entry. -/
theorem attn_apply (b : Fin 8) (h : Fin 16) (r c : Fin 1024) :
    val_main_v17 (F := Ideal) x0 x1 x3 (ix4 b h r c)
      = attnHead (headRows x0 b h) (headCols (val_main_v0 (F := Ideal) x1) b h) (headMask x3) r c := by
  rw [val_main_v17_apply, weight_apply, rowSum_apply]
  rfl

/-- The output entry. -/
theorem out_apply (b : Fin 8) (h : Fin 16) (r : Fin 1024) (d : Fin 64) :
    val_main_v18 (F := Ideal) x0 x1 x2 x3 (ix4 b h r d)
      = outHead (headRows x0 b h) (headCols (val_main_v0 (F := Ideal) x1) b h) (headMask x3) (headRows x2 b h) r d := by
  rw [val_main_v18_apply]
  simp only [lidx_v18, ridx_v18, attn_apply]
  rfl

/-! ## The two results -/

/-- The host's second result is the attention array. -/
theorem attn_eq : val_main_v17 (F := Ideal) x0 x1 x3 = attnArr x0 (val_main_v0 (F := Ideal) x1) x3 := by
  funext i
  obtain ⟨b, h, r, c, rfl⟩ : ∃ (b : Fin 8) (h : Fin 16) (r c : Fin 1024), i = ix4 b h r c := ⟨i 0, i 1, i 2, i 3, eq_ix4 i⟩
  exact attn_apply x0 x1 x3 b h r c

/-- The host's first result is the output array. -/
theorem out_eq : val_main_v18 (F := Ideal) x0 x1 x2 x3 = outArr x0 (val_main_v0 (F := Ideal) x1) x2 x3 := by
  funext i
  obtain ⟨b, h, r, d, rfl⟩ : ∃ (b : Fin 8) (h : Fin 16) (r : Fin 1024) (d : Fin 64), i = ix4 b h r d :=
    ⟨i 0, i 1, i 2, i 3, eq_ix4 i⟩
  exact out_apply x0 x1 x2 x3 b h r d

end Cert.ReferenceIdeal.RefValue

end
-- ==== Proof.lean ====
/-
  Scaled, masked soft-max attention: a kernel that works one head per grid point against the same computation written
  over whole four-axis arrays, equal over the extended reals.

  Both programs re-lay the keys by one reshape, form per head the scores (queries · re-laid keys), scale them, replace
  them by one fixed small negative number where the mask word is zero, take a row-wise soft-max (shift by the row's
  maximum taken from −∞, exponentiate, divide by the row's sum) and multiply the result into the values; they return
  the output and the attention array. They differ in two ways. The kernel rounds the matrix products' operands to
  sixteen bits, which is the identity on extended reals. And the kernel multiplies the scores by the word of 0.125 where
  the other divides by the word of 8: on every extended real, the infinities included, dividing by eight is multiplying
  by one eighth. So no finiteness of the inputs is used.

  The kernel's side is read block by block (one head per point, the blocks covering both result arrays), the other's
  stage by stage at an index; both are the one specification of Proof/AttnSpec.lean. The three frames are the generated
  frames and the host program's generated run; the idealization rewrote nothing.
-/
import proofs.«172590_j22093311771402_1_alg».proof.Defs
import proofs.«172590_j22093311771402_1_alg».proof.Proof.Gen.Kernel
import proofs.«172590_j22093311771402_1_alg».proof.Proof.Gen.Kernel.Skeleton
import proofs.«172590_j22093311771402_1_alg».proof.Proof.Gen.Kernel.Launch
import proofs.«172590_j22093311771402_1_alg».proof.Proof.Gen.Kernel.Points
import proofs.«172590_j22093311771402_1_alg».proof.Proof.Gen.Kernel.Frame
import proofs.«172590_j22093311771402_1_alg».proof.Proof.Gen.KernelIdeal
import proofs.«172590_j22093311771402_1_alg».proof.Proof.Gen.KernelIdeal.Skeleton
import proofs.«172590_j22093311771402_1_alg».proof.Proof.Gen.KernelIdeal.Launch
import proofs.«172590_j22093311771402_1_alg».proof.Proof.Gen.KernelIdeal.Points
import proofs.«172590_j22093311771402_1_alg».proof.Proof.Gen.KernelIdeal.Frame
import proofs.«172590_j22093311771402_1_alg».proof.Proof.Gen.ReferenceIdeal
import proofs.«172590_j22093311771402_1_alg».proof.Proof.Gen.Pre_finite_inputs
import proofs.«172590_j22093311771402_1_alg».proof.Proof.Gen.KernelIdeal.Value
import proofs.«172590_j22093311771402_1_alg».proof.Proof.Gen.ReferenceIdeal.Run
import proofs.«172590_j22093311771402_1_alg».proof.Proof.Gen.ReferenceIdeal.Read
import proofs.«172590_j22093311771402_1_alg».proof.Proof.KernelArrays
import proofs.«172590_j22093311771402_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The host program runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten on the way to the extended reals. -/
theorem preserves : Cert.preserves_Kernel_KernelIdeal := trivial

/-- From memories that agree on the arguments both programs end with the output array and the attention array of the
    specification: the kernel by its blocks, the host program stage by stage. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨hout, hattn, hkept⟩ := h c
  obtain ⟨a0, a1, a2, a3⟩ := hagree c
  refine ⟨hout.trans ?_, hattn.trans ?_, hkept⟩
  · rw [Cert.ReferenceIdeal.Read.val_main_v18_eq, Cert.ReferenceIdeal.RefValue.out_eq, a0, a1, a2, a3]
    rfl
  · rw [Cert.ReferenceIdeal.Read.val_main_v17_eq, Cert.ReferenceIdeal.RefValue.attn_eq, a0, a1, a3]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
